-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S32x16 : Shape := ⟨2, ![32, 16]⟩
abbrev S32x1024x1024 : Shape := ⟨3, ![32, 1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S32x16 : S_.BroadcastsInDim S32x16 (![] : Fin 0 → Fin S32x16.rank)
  reducesTo_S32x16_S_d0_1 : S32x16.ReducesTo [0, 1] S_
  bcast_S_S32x1024x1024 : S_.BroadcastsInDim S32x1024x1024 (![] : Fin 0 → Fin S32x1024x1024.rank)
  reducesTo_S32x1024x1024_S_d0_1_2 : S32x1024x1024.ReducesTo [0, 1, 2] S_

variable [Facts]

def fn {F : FTy → Type} [FloatOps F] (main_arg0 : FVec F S4096x1024 .f32) (main_arg1 : FVec F S32x16 .f32) (main_arg2 : FVec F S32x1024x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S32x16 .f32 := Host.absf main_arg1
  let main_cst_0 : FVec F S_ .f32 := constant S_ .f32 0x7F800000#32
  let main_v5 : FVec F S32x16 .f32 := broadcastInDim S32x16 ![] bcast_S_S32x16 main_cst_0
  let main_v6 : IVec S32x16 1 := cmpf .olt main_v4 main_v5
  let main_c_1 : IVec S_ 1 := constantI S_ 1 1#1
  let main_v7 : IVec S_ 1 := (fun x v => Host.reduce IntOp.andi x v reducesTo_S32x16_S_d0_1 h_S_) main_v6 main_c_1
  let main_v8 : IVec S_ 1 := andi main_v3 main_v7
  let main_v9 : FVec F S32x1024x1024 .f32 := Host.absf main_arg2
  let main_cst_2 : FVec F S_ .f32 := constant S_ .f32 0x7F800000#32
  let main_v10 : FVec F S32x1024x1024 .f32 := broadcastInDim S32x1024x1024 ![] bcast_S_S32x1024x1024 main_cst_2
  let main_v11 : IVec S32x1024x1024 1 := cmpf .olt main_v9 main_v10
  let main_c_3 : IVec S_ 1 := constantI S_ 1 1#1
  let main_v12 : IVec S_ 1 := (fun x v => Host.reduce IntOp.andi x v reducesTo_S32x1024x1024_S_d0_1_2 h_S_) main_v11 main_c_3
  let main_v13 : IVec S_ 1 := andi main_v8 main_v12
  main_v13
-- ==== Kernel.lean ====
abbrev S4096x1024 : Shape := ⟨2, ![4096, 1024]⟩
abbrev S32x16 : Shape := ⟨2, ![32, 16]⟩
abbrev S32x1024x1024 : Shape := ⟨3, ![32, 1024, 1024]⟩
abbrev S16x1024x1024 : Shape := ⟨3, ![16, 1024, 1024]⟩
abbrev S32x32x1024 : Shape := ⟨3, ![32, 32, 1024]⟩
abbrev S16x32x1024 : Shape := ⟨3, ![16, 32, 1024]⟩
abbrev S32x32768 : Shape := ⟨2, ![32, 32768]⟩
abbrev S16x32768 : Shape := ⟨2, ![16, 32768]⟩
abbrev S4096x1024x16 : Shape := ⟨3, ![4096, 1024, 16]⟩
abbrev S256x1024 : Shape := ⟨2, ![256, 1024]⟩
abbrev S16x128x1024 : Shape := ⟨3, ![16, 128, 1024]⟩
abbrev S256x128x16 : Shape := ⟨3, ![256, 128, 16]⟩
abbrev S1x128x1024 : Shape := ⟨3, ![1, 128, 1024]⟩
abbrev S128x1024 : Shape := ⟨2, ![128, 1024]⟩
abbrev S256x128 : Shape := ⟨2, ![256, 128]⟩
abbrev S256x128x1 : Shape := ⟨3, ![256, 128, 1]⟩

abbrev nBuf : Space → Nat
  | .hbm => 5
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S32x16, .f32⟩
  | .hbm, ⟨2, _⟩ => ⟨S32x1024x1024, .f32⟩
  | .hbm, ⟨3, _⟩ => ⟨S16x1024x1024, .bf16⟩
  | .hbm, ⟨4, _⟩ => ⟨S4096x1024x16, .f32⟩
  | .local _ .vmem, ⟨0, _⟩ => ⟨S32x32x1024, .f32⟩
  | .local _ .vmem, ⟨1, _⟩ => ⟨S32x32x1024, .f32⟩
  | .local _ .vmem, ⟨2, _⟩ => ⟨S32x16, .f32⟩
  | .local _ .vmem, ⟨3, _⟩ => ⟨S16x32x1024, .bf16⟩
  | .local _ .vmem, ⟨4, _⟩ => ⟨S16x32x1024, .bf16⟩
  | .local _ .vmem, ⟨5, _⟩ => ⟨S256x1024, .f32⟩
  | .local _ .vmem, ⟨6, _⟩ => ⟨S256x1024, .f32⟩
  | .local _ .vmem, ⟨7, _⟩ => ⟨S16x128x1024, .bf16⟩
  | .local _ .vmem, ⟨8, _⟩ => ⟨S16x128x1024, .bf16⟩
  | .local _ .vmem, ⟨9, _⟩ => ⟨S256x128x16, .f32⟩
  | .local _ .vmem, ⟨10, _⟩ => ⟨S256x128x16, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S32x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x32x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S16x128x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S256x128x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S32x32x1024_S32x32x1024_0_0_0 : ∀ a, (![0, 0, 0] : Fin 3 → Nat) a + S32x32x1024.size a ≤ S32x32x1024.size a
  h_S32x32x1024 : 0 < S32x32x1024.numel
  bitsLt_bf16_f32 : FTy.bits .bf16 < FTy.bits .f32
  shapeCasts_S32x32x1024_S32x32768 : S32x32x1024.ShapeCasts S32x32768
  inb_S32x16_S32x16_0_0 : ∀ a, (![0, 0] : Fin 2 → Nat) a + S32x16.size a ≤ S32x16.size a
  h_S32x16 : 0 < S32x16.numel
  shapeCasts_S16x32768_S16x32x1024 : S16x32768.ShapeCasts S16x32x1024
  inb_S16x32x1024_S16x32x1024_0_0_0 : ∀ a, (![0, 0, 0] : Fin 3 → Nat) a + S16x32x1024.size a ≤ S16x32x1024.size a
  h_S16x32x1024 : 0 < S16x32x1024.numel
  packedbf16_S16x32x1024_S16x32x1024_0_0_0 : (Rect.unit (s := S16x32x1024) ![0, 0, 0] S16x32x1024.size inb_S16x32x1024_S16x32x1024_0_0_0).PackedRows (EltTy.packing .bf16)
  inb_S256x1024_S256x1024_0_0 : ∀ a, (![0, 0] : Fin 2 → Nat) a + S256x1024.size a ≤ S256x1024.size a
  h_S256x1024 : 0 < S256x1024.numel
  inb_S16x128x1024_S1x128x1024_0_0_0 : ∀ a, (![0, 0, 0] : Fin 3 → Nat) a + S1x128x1024.size a ≤ S16x128x1024.size a
  h_S1x128x1024 : 0 < S1x128x1024.numel
  shapeCasts_S1x128x1024_S128x1024 : S1x128x1024.ShapeCasts S128x1024
  inb_S256x128x16_S256x128x1_0_0_0 : ∀ a, (![0, 0, 0] : Fin 3 → Nat) a + S256x128x1.size a ≤ S256x128x16.size a
  h_S256x128x1 : 0 < S256x128x1.numel
  shapeCasts_S256x128x1_S256x128 : S256x128x1.ShapeCasts S256x128
  shapeCasts_S256x128_S256x128x1 : S256x128.ShapeCasts S256x128x1
  inb_S16x128x1024_S1x128x1024_1_0_0 : ∀ a, (![1, 0, 0] : Fin 3 → Nat) a + S1x128x1024.size a ≤ S16x128x1024.size a
  inb_S256x128x16_S256x128x1_0_0_1 : ∀ a, (![0, 0, 1] : Fin 3 → Nat) a + S256x128x1.size a ≤ S256x128x16.size a
  inb_S16x128x1024_S1x128x1024_2_0_0 : ∀ a, (![2, 0, 0] : Fin 3 → Nat) a + S1x128x1024.size a ≤ S16x128x1024.size a
  inb_S256x128x16_S256x128x1_0_0_2 : ∀ a, (![0, 0, 2] : Fin 3 → Nat) a + S256x128x1.size a ≤ S256x128x16.size a
  inb_S16x128x1024_S1x128x1024_3_0_0 : ∀ a, (![3, 0, 0] : Fin 3 → Nat) a + S1x128x1024.size a ≤ S16x128x1024.size a
  inb_S256x128x16_S256x128x1_0_0_3 : ∀ a, (![0, 0, 3] : Fin 3 → Nat) a + S256x128x1.size a ≤ S256x128x16.size a
  inb_S16x128x1024_S1x128x1024_4_0_0 : ∀ a, (![4, 0, 0] : Fin 3 → Nat) a + S1x128x1024.size a ≤ S16x128x1024.size a
  inb_S256x128x16_S256x128x1_0_0_4 : ∀ a, (![0, 0, 4] : Fin 3 → Nat) a + S256x128x1.size a ≤ S256x128x16.size a
  inb_S16x128x1024_S1x128x1024_5_0_0 : ∀ a, (![5, 0, 0] : Fin 3 → Nat) a + S1x128x1024.size a ≤ S16x128x1024.size a
  inb_S256x128x16_S256x128x1_0_0_5 : ∀ a, (![0, 0, 5] : Fin 3 → Nat) a + S256x128x1.size a ≤ S256x128x16.size a
  inb_S16x128x1024_S1x128x1024_6_0_0 : ∀ a, (![6, 0, 0] : Fin 3 → Nat) a + S1x128x1024.size a ≤ S16x128x1024.size a
  inb_S256x128x16_S256x128x1_0_0_6 : ∀ a, (![0, 0, 6] : Fin 3 → Nat) a + S256x128x1.size a ≤ S256x128x16.size a
  inb_S16x128x1024_S1x128x1024_7_0_0 : ∀ a, (![7, 0, 0] : Fin 3 → Nat) a + S1x128x1024.size a ≤ S16x128x1024.size a
  inb_S256x128x16_S256x128x1_0_0_7 : ∀ a, (![0, 0, 7] : Fin 3 → Nat) a + S256x128x1.size a ≤ S256x128x16.size a
  inb_S16x128x1024_S1x128x1024_8_0_0 : ∀ a, (![8, 0, 0] : Fin 3 → Nat) a + S1x128x1024.size a ≤ S16x128x1024.size a
  inb_S256x128x16_S256x128x1_0_0_8 : ∀ a, (![0, 0, 8] : Fin 3 → Nat) a + S256x128x1.size a ≤ S256x128x16.size a
  inb_S16x128x1024_S1x128x1024_9_0_0 : ∀ a, (![9, 0, 0] : Fin 3 → Nat) a + S1x128x1024.size a ≤ S16x128x1024.size a
  inb_S256x128x16_S256x128x1_0_0_9 : ∀ a, (![0, 0, 9] : Fin 3 → Nat) a + S256x128x1.size a ≤ S256x128x16.size a
  inb_S16x128x1024_S1x128x1024_10_0_0 : ∀ a, (![10, 0, 0] : Fin 3 → Nat) a + S1x128x1024.size a ≤ S16x128x1024.size a
  inb_S256x128x16_S256x128x1_0_0_10 : ∀ a, (![0, 0, 10] : Fin 3 → Nat) a + S256x128x1.size a ≤ S256x128x16.size a
  inb_S16x128x1024_S1x128x1024_11_0_0 : ∀ a, (![11, 0, 0] : Fin 3 → Nat) a + S1x128x1024.size a ≤ S16x128x1024.size a
  inb_S256x128x16_S256x128x1_0_0_11 : ∀ a, (![0, 0, 11] : Fin 3 → Nat) a + S256x128x1.size a ≤ S256x128x16.size a
  inb_S16x128x1024_S1x128x1024_12_0_0 : ∀ a, (![12, 0, 0] : Fin 3 → Nat) a + S1x128x1024.size a ≤ S16x128x1024.size a
  inb_S256x128x16_S256x128x1_0_0_12 : ∀ a, (![0, 0, 12] : Fin 3 → Nat) a + S256x128x1.size a ≤ S256x128x16.size a
  inb_S16x128x1024_S1x128x1024_13_0_0 : ∀ a, (![13, 0, 0] : Fin 3 → Nat) a + S1x128x1024.size a ≤ S16x128x1024.size a
  inb_S256x128x16_S256x128x1_0_0_13 : ∀ a, (![0, 0, 13] : Fin 3 → Nat) a + S256x128x1.size a ≤ S256x128x16.size a
  inb_S16x128x1024_S1x128x1024_14_0_0 : ∀ a, (![14, 0, 0] : Fin 3 → Nat) a + S1x128x1024.size a ≤ S16x128x1024.size a
  inb_S256x128x16_S256x128x1_0_0_14 : ∀ a, (![0, 0, 14] : Fin 3 → Nat) a + S256x128x1.size a ≤ S256x128x16.size a
  inb_S16x128x1024_S1x128x1024_15_0_0 : ∀ a, (![15, 0, 0] : Fin 3 → Nat) a + S1x128x1024.size a ≤ S16x128x1024.size a
  inb_S256x128x16_S256x128x1_0_0_15 : ∀ a, (![0, 0, 15] : Fin 3 → Nat) a + S256x128x1.size a ≤ S256x128x16.size a
  dot_S32x16_S32x32768_S16x32768_0_0_1_1_n_n_wf : DotDims.WF S32x16 S32x32768 S16x32768 [0] [0] [1] [1] [] []
  dot_S256x1024_S128x1024_S256x128_1_1_0_0_n_n_wf : DotDims.WF S256x1024 S128x1024 S256x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x32x1024.size a ≤ S32x1024x1024.size a
  hwx0_0 : ∀ i : grid0.Coords, EltTy.bits .f32 = 32 ∨ (Rect.block (s := S32x1024x1024) S32x32x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x16.size a ≤ S32x16.size a
  hwx0_1 : ∀ i : grid0.Coords, EltTy.bits .f32 = 32 ∨ (Rect.block (s := S32x16) S32x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x32x1024.size a ≤ S16x1024x1024.size a
  hwx0_2 : ∀ i : grid0.Coords, EltTy.bits .bf16 = 32 ∨ (Rect.block (s := S16x1024x1024) S16x32x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S4096x1024.size a
  hwx1_0 : ∀ i : grid1.Coords, EltTy.bits .f32 = 32 ∨ (Rect.block (s := S4096x1024) S256x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x128x1024.size a ≤ S16x1024x1024.size a
  hwx1_1 : ∀ i : grid1.Coords, EltTy.bits .bf16 = 32 ∨ (Rect.block (s := S16x1024x1024) S16x128x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x128x16.size a ≤ S4096x1024x16.size a
  hwx1_2 : ∀ i : grid1.Coords, EltTy.bits .f32 = 32 ∨ (Rect.block (s := S4096x1024x16) S256x128x16.size (cc1_transform_2 i) (hinb1_2 i)).WholeWords (EltTy.packing .f32)

variable [Facts₀]

def dot_S32x16_S32x32768_S16x32768_0_0_1_1_n_n : DotDims S32x16 S32x32768 S16x32768 where
  lhsContracting := [0]
  rhsContracting := [0]
  lhsNonContracting := [1]
  rhsNonContracting := [1]
  lhsBatch := []
  rhsBatch := []
  wf := dot_S32x16_S32x32768_S16x32768_0_0_1_1_n_n_wf
def dot_S256x1024_S128x1024_S256x128_1_1_0_0_n_n : DotDims S256x1024 S128x1024 S256x128 where
  lhsContracting := [1]
  rhsContracting := [1]
  lhsNonContracting := [0]
  rhsNonContracting := [0]
  lhsBatch := []
  rhsBatch := []
  wf := dot_S256x1024_S128x1024_S256x128_1_1_0_0_n_n_wf

abbrev win0_0 : Pipeline.Window sig grid0 :=
  Pipeline.Window.ofSpec (Memref.whole main_arg2) S32x32x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S16x32x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S16x128x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S256x128x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x1024 : Shape := ⟨2, ![4096, 1024]⟩
abbrev S32x16 : Shape := ⟨2, ![32, 16]⟩
abbrev S32x1024x1024 : Shape := ⟨3, ![32, 1024, 1024]⟩
abbrev S32x1048576 : Shape := ⟨2, ![32, 1048576]⟩
abbrev S16x1048576 : Shape := ⟨2, ![16, 1048576]⟩
abbrev S16x1024x1024 : Shape := ⟨3, ![16, 1024, 1024]⟩
abbrev S4096x16x1024 : Shape := ⟨3, ![4096, 16, 1024]⟩
abbrev S4096x1024x16 : Shape := ⟨3, ![4096, 1024, 16]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S32x16, .f32⟩
  | .hbm, ⟨2, _⟩ => ⟨S32x1024x1024, .f32⟩
  | .hbm, ⟨3, _⟩ => ⟨S32x1048576, .f32⟩
  | .hbm, ⟨4, _⟩ => ⟨S16x1048576, .f32⟩
  | .hbm, ⟨5, _⟩ => ⟨S16x1024x1024, .f32⟩
  | .hbm, ⟨6, _⟩ => ⟨S4096x16x1024, .f32⟩
  | .hbm, ⟨7, _⟩ => ⟨S4096x1024x16, .f32⟩
  | .hbm, ⟨8, _⟩ => ⟨S4096x1024x16, .f32⟩
  | .hbm, ⟨9, _⟩ => ⟨S4096x1024x16, .f32⟩
  | .hbm, ⟨10, _⟩ => ⟨S_, .f32⟩
  | .hbm, ⟨11, _⟩ => ⟨S4096x1024x16, .f32⟩
  | .hbm, ⟨12, _⟩ => ⟨S4096x1024x16, .f32⟩
  | .hbm, ⟨13, _⟩ => ⟨S_, .f32⟩
  | .hbm, ⟨14, _⟩ => ⟨S4096x1024x16, .f32⟩
  | .hbm, ⟨15, _⟩ => ⟨S4096x1024x16, .f32⟩
  | .hbm, ⟨16, _⟩ => ⟨S4096x1024x16, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  shapeCasts_S32x1024x1024_S32x1048576 : S32x1024x1024.ShapeCasts S32x1048576
  shapeCasts_S16x1048576_S16x1024x1024 : S16x1048576.ShapeCasts S16x1024x1024
  transposes_S4096x16x1024_S4096x1024x16_0_2_1 : S4096x16x1024.Transposes [0, 2, 1] S4096x1024x16
  bcast_S_S4096x1024x16 : S_.BroadcastsInDim S4096x1024x16 (![] : Fin 0 → Fin S4096x1024x16.rank)
  dot_S32x16_S32x1048576_S16x1048576_0_0_1_1_n_n_wf : DotDims.WF S32x16 S32x1048576 S16x1048576 [0] [0] [1] [1] [] []
  dot_S4096x1024_S16x1024x1024_S4096x16x1024_1_2_0_01_n_n_wf : DotDims.WF S4096x1024 S16x1024x1024 S4096x16x1024 [1] [2] [0] [0, 1] [] []

variable [Facts₀]

def dot_S32x16_S32x1048576_S16x1048576_0_0_1_1_n_n : DotDims S32x16 S32x1048576 S16x1048576 where
  lhsContracting := [0]
  rhsContracting := [0]
  lhsNonContracting := [1]
  rhsNonContracting := [1]
  lhsBatch := []
  rhsBatch := []
  wf := dot_S32x16_S32x1048576_S16x1048576_0_0_1_1_n_n_wf
def dot_S4096x1024_S16x1024x1024_S4096x16x1024_1_2_0_01_n_n : DotDims S4096x1024 S16x1024x1024 S4096x16x1024 where
  lhsContracting := [1]
  rhsContracting := [2]
  lhsNonContracting := [0]
  rhsNonContracting := [0, 1]
  lhsBatch := []
  rhsBatch := []
  wf := dot_S4096x1024_S16x1024x1024_S4096x16x1024_1_2_0_01_n_n_wf

class Facts : Prop extends Facts₀ where

variable [Facts]
-- ==== Proof.MixedFilters.lean ====
/-
  The function both programs compute, index by index, over the extended reals.

  From an input batch `X : [4096, 1024]`, mixing weights `P : [32, 16]` and a stack of 32 square
  transformations `T : [32, 1024, 1024]`:
    * the mixed filter bank  `filt[e, i, j] = ∑ p, P[p, e] · T[p, i, j]`  (16 filters of size 1024 × 1024);
    * the response           `s[b, i, e]    = ∑ j, X[b, j] · filt[e, i, j]`;
    * the gated response     `out[b, i, e]  = s · σ(s)`,  σ the logistic function `1 / (1 + exp (-s))`.
  Both sums are written with the factors in the order in which both programs multiply them, so no law of
  the extended reals is needed to join the two sides: the two programs differ only in how they tile the
  index space.
-/
import Idealize.ShloMosaic.PureOps.Ideal
import Idealize.ShloMosaic.PureOps.Ideal.Laws
import Idealize.ShloMosaic.Lib.ValueIdx

noncomputable section

namespace Cert.MixedFilters

open Idealize.ShloMosaic Idealize.ShloMosaic.ValueIdx

/-- One entry of the mixed filter bank: column `e` of the weights against the stack at `(i, j)`. -/
def filtAt (P : (⟨2, ![32, 16]⟩ : Shape).Idx → EReal) (T : (⟨3, ![32, 1024, 1024]⟩ : Shape).Idx → EReal)
    (e : Fin 16) (i j : Fin 1024) : EReal :=
  ∑ p : Fin 32, P (ix2 p e) * T (ix3 p i j)

/-- The mixed filter bank as an array `[16, 1024, 1024]`. -/
def filters (P : (⟨2, ![32, 16]⟩ : Shape).Idx → EReal) (T : (⟨3, ![32, 1024, 1024]⟩ : Shape).Idx → EReal) :
    (⟨3, ![16, 1024, 1024]⟩ : Shape).Idx → EReal :=
  fun q => filtAt P T (q 0) (q 1) (q 2)

theorem filters_ix3 (P : (⟨2, ![32, 16]⟩ : Shape).Idx → EReal) (T : (⟨3, ![32, 1024, 1024]⟩ : Shape).Idx → EReal)
    (e : Fin 16) (i j : Fin 1024) : filters P T (ix3 e i j) = filtAt P T e i j := rfl

/-- `s ↦ s · σ(s)`, with `σ(s) = 1 / (1 + exp (-s))` read on the extended reals (`σ(-∞) = 0`, `σ(+∞) = 1`). -/
def gate (s : EReal) : EReal := s * Ideal.logistic s

/-- Row `b` of the batch against row `i` of filter `e`. -/
def respAt (X : (⟨2, ![4096, 1024]⟩ : Shape).Idx → EReal) (Fl : (⟨3, ![16, 1024, 1024]⟩ : Shape).Idx → EReal)
    (b : Fin 4096) (i : Fin 1024) (e : Fin 16) : EReal :=
  ∑ j : Fin 1024, X (ix2 b j) * Fl (ix3 e i j)

/-- The gated response of a batch to ANY filter bank, as an array `[4096, 1024, 16]`. -/
def respond (X : (⟨2, ![4096, 1024]⟩ : Shape).Idx → EReal) (Fl : (⟨3, ![16, 1024, 1024]⟩ : Shape).Idx → EReal) :
    (⟨3, ![4096, 1024, 16]⟩ : Shape).Idx → EReal :=
  fun q => gate (respAt X Fl (q 0) (q 1) (q 2))

theorem respond_ix3 (X : (⟨2, ![4096, 1024]⟩ : Shape).Idx → EReal) (Fl : (⟨3, ![16, 1024, 1024]⟩ : Shape).Idx → EReal)
    (b : Fin 4096) (i : Fin 1024) (e : Fin 16) : respond X Fl (ix3 b i e) = gate (respAt X Fl b i e) := rfl

/-- The whole function: the gated response to the mixed filter bank. -/
def result (X : (⟨2, ![4096, 1024]⟩ : Shape).Idx → EReal) (P : (⟨2, ![32, 16]⟩ : Shape).Idx → EReal)
    (T : (⟨3, ![32, 1024, 1024]⟩ : Shape).Idx → EReal) : (⟨3, ![4096, 1024, 16]⟩ : Shape).Idx → EReal :=
  respond X (filters P T)

/-- The word `0x3F800000` is the number one. -/
theorem one_f32 : Ideal.ofBits .f32 0x3F800000#32 = 1 := by
  simp [Ideal.ofBits, Ideal.ieee, -EReal.coe_mul]; norm_num

/-- The logistic function spelt with the host's operations (negate, exponential, add one, divide one by it)
    is the logistic function. -/
theorem gate_host (s : EReal) :
    FloatOps.mulf (F := Ideal) (φ := .f32) s
      (FloatOps.hostDivf (F := Ideal) (φ := .f32) (Ideal.ofBits .f32 0x3F800000#32)
        (FloatOps.addf (F := Ideal) (φ := .f32) (Ideal.ofBits .f32 0x3F800000#32)
          (FloatOps.hostUnary (F := Ideal) (φ := .f32) .exp (FloatOps.hostNegf (F := Ideal) (φ := .f32) s)))) = gate s := by
  rw [one_f32]; rfl

end Cert.MixedFilters

end
-- ==== Proof.ReferenceValue.lean ====
/-
  The reference program computes `MixedFilters.result`.

  The reference flattens the stack of transformations to `[32, 1024·1024]`, contracts it with the weights over
  the 32 transformations, reshapes the result to the filter bank `[16, 1024, 1024]`, contracts the batch with
  it over the last axis (result laid out `[b, e, i]`), transposes to `[b, i, e]`, and applies `s ↦ s · σ(s)`
  with `σ` spelt as `1 / (1 + exp (-s))`. Read at an index `(b, i, e)` this is
  `gate (∑ j, X[b, j] · ∑ p, P[p, e] · T[p, i, j])`: the two reshapes cancel, because the flat position of
  `(i, j)` in a row of the flattened stack is `i · 1024 + j`, and `(e, i, j)` sits at row `e`, flat position
  `i · 1024 + j` of the flat filter bank.
-/
import proofs.«137690_j90958817394732_2_alg».proof.Proof.Gen.ReferenceIdeal.Read
import proofs.«137690_j90958817394732_2_alg».proof.Proof.MixedFilters

noncomputable section

namespace Cert.ReferenceIdeal.RefValue

open Cert.ReferenceIdeal Cert.ReferenceIdeal.Gen Cert.ReferenceIdeal.Read
open Idealize.ShloMosaic Idealize.ShloMosaic.ValueIdx Cert.MixedFilters

/-- The batch operand of the second contraction at output `(b, e, i)`, contraction index `j`: `X[b, j]`. -/
theorem batch_index (b : Fin 4096) (i : Fin 1024) (e : Fin 16) (j : Fin 1024) :
    lidx_main_v3 (idx_main_v4 (ix3 b i e)) j = ix2 b j :=
  funext fun a => Fin.ext (by match a with | ⟨0, _⟩ => rfl | ⟨1, _⟩ => rfl)

/-- The weight operand of the first contraction, followed back from output `(b, i, e)`: `P[p, e]`. -/
theorem weight_index (b : Fin 4096) (i : Fin 1024) (e : Fin 16) (j : Fin 1024) (p : Fin 32) :
    lidx_main_v1 (idx_main_v2 (ridx_main_v3 (idx_main_v4 (ix3 b i e)) j)) p = ix2 p e :=
  funext fun a => Fin.ext (by
    match a with
    | ⟨0, _⟩ => rfl
    | ⟨1, _⟩ =>
      have he : e.val < 16 := e.isLt
      have hi : i.val < 1024 := i.isLt
      have hj : j.val < 1024 := j.isLt
      show ((e.val * 1024 + i.val) * 1024 + j.val) / 1048576 = e.val
      omega)

/-- The stack operand of the first contraction, followed back through both reshapes: `T[p, i, j]`. -/
theorem stack_index (b : Fin 4096) (i : Fin 1024) (e : Fin 16) (j : Fin 1024) (p : Fin 32) :
    idx_main_v0 (ridx_main_v1 (idx_main_v2 (ridx_main_v3 (idx_main_v4 (ix3 b i e)) j)) p) = ix3 p i j :=
  funext fun a => Fin.ext (by
    have he : e.val < 16 := e.isLt
    have hi : i.val < 1024 := i.isLt
    have hj : j.val < 1024 := j.isLt
    have hp : p.val < 32 := p.isLt
    match a with
    | ⟨0, _⟩ =>
      show (p.val * 1048576 + ((e.val * 1024 + i.val) * 1024 + j.val) % 1048576) / 1048576 = p.val
      omega
    | ⟨1, _⟩ =>
      show (p.val * 1048576 + ((e.val * 1024 + i.val) * 1024 + j.val) % 1048576) / 1024 % 1024 = i.val
      omega
    | ⟨2, _⟩ =>
      show (p.val * 1048576 + ((e.val * 1024 + i.val) * 1024 + j.val) % 1048576) % 1024 = j.val
      omega)

/-- The transposed second contraction at `(b, i, e)` is the response of row `b` to row `i` of mixed filter `e`. -/
theorem response_eq (x0 : (⟨S4096x1024, .f32⟩ : BufTy).Contents (Elt Ideal)) (x1 : (⟨S32x16, .f32⟩ : BufTy).Contents (Elt Ideal))
    (x2 : (⟨S32x1024x1024, .f32⟩ : BufTy).Contents (Elt Ideal)) (b : Fin 4096) (i : Fin 1024) (e : Fin 16) :
    val_main_v4 (F := Ideal) x0 x1 x2 (ix3 b i e) = respAt x0 (filters x1 x2) b i e := by
  rw [val_main_v4_apply, val_main_v3_apply]
  unfold respAt
  refine Finset.sum_congr rfl fun j _ => ?_
  rw [batch_index, val_main_v2_apply, val_main_v1_apply, filters_ix3]
  unfold filtAt
  refine congrArg (x0 (ix2 b j) * ·) (Finset.sum_congr rfl fun p _ => ?_)
  rw [weight_index, val_main_v0_apply, stack_index]

/-- The reference's result array is `MixedFilters.result` of its three arguments. -/
theorem result_eq (x0 : (⟨S4096x1024, .f32⟩ : BufTy).Contents (Elt Ideal)) (x1 : (⟨S32x16, .f32⟩ : BufTy).Contents (Elt Ideal))
    (x2 : (⟨S32x1024x1024, .f32⟩ : BufTy).Contents (Elt Ideal)) :
    val_main_v11 (F := Ideal) x0 x1 x2 = result x0 x1 x2 := by
  funext q
  obtain ⟨b, i, e, rfl⟩ : ∃ (b : Fin 4096) (i : Fin 1024) (e : Fin 16), q = ix3 b i e := ⟨q 0, q 1, q 2, eq_ix3 q⟩
  rw [val_main_v11_apply, val_main_v10_apply, val_main_v9_apply, val_main_cst_0_apply, val_main_v8_apply, val_main_v7_apply,
    val_main_cst_apply, val_main_v6_apply, val_main_v5_apply, response_eq]
  exact gate_host _

end Cert.ReferenceIdeal.RefValue

end
-- ==== Proof.FilterStage.lean ====
/-
  The first kernel: the mixed filter bank, 32 rows of every filter at a time.

  Grid point `t` (of 32) loads rows `32·t … 32·t + 31` of all 32 transformations (a block `[32, 32, 1024]`) and
  the whole weight matrix, flattens the block to `[32, 32·1024]`, contracts it with the weights over the 32
  transformations, and stores the result, reshaped to `[16, 32, 1024]`, as rows `32·t … 32·t + 31` of all 16
  filters. The two reshapes cancel: position `r · 1024 + j` of a flattened row is `(r, j)`. So the block stored
  at point `t` is block `t` of `MixedFilters.filters`, and the 32 blocks tile the filter bank.
-/
import proofs.«137690_j90958817394732_2_alg».proof.Proof.Gen.KernelIdeal.Frame
import proofs.«137690_j90958817394732_2_alg».proof.Proof.MixedFilters
import Idealize.ShloMosaic.Lib.Pipeline.Value
import Idealize.ShloMosaic.Lib.ValueIdx
import Idealize.ShloMosaic.PureOps.Ideal.Laws

noncomputable section

namespace Cert.KernelIdeal.FilterStage

open Cert.KernelIdeal Cert.KernelIdeal.Gen
open Idealize.ShloMosaic Idealize.ShloMosaic.TcCoe Idealize.ShloMosaic.ValueIdx Idealize.SL.Sem
open Cert.MixedFilters

/-! ## The body's arithmetic at an index -/

/-- Output axis 0 is the weights' free axis. -/
theorem weight_free (i : S16x32768.Idx) (k : dot_S32x16_S32x32768_S16x32768_0_0_1_1_n_n.contr.Idx) :
    (dot_S32x16_S32x32768_S16x32768_0_0_1_1_n_n.lhsIdx i k 1).val = (i 0).val := by
  unfold DotDims.lhsIdx
  rw [dif_neg (show ¬(1 : Fin S32x16.rank) ∈ dot_S32x16_S32x32768_S16x32768_0_0_1_1_n_n.lhsBatch by decide),
    dif_pos (show (1 : Fin S32x16.rank) ∈ dot_S32x16_S32x32768_S16x32768_0_0_1_1_n_n.lhsNonContracting by decide)]
  rfl

/-- Output axis 1 is the flattened stack's free axis. -/
theorem stack_free (i : S16x32768.Idx) (k : dot_S32x16_S32x32768_S16x32768_0_0_1_1_n_n.contr.Idx) :
    (dot_S32x16_S32x32768_S16x32768_0_0_1_1_n_n.rhsIdx i k 1).val = (i 1).val := by
  unfold DotDims.rhsIdx
  rw [dif_neg (show ¬(1 : Fin S32x32768.rank) ∈ dot_S32x16_S32x32768_S16x32768_0_0_1_1_n_n.rhsBatch by decide),
    dif_pos (show (1 : Fin S32x32768.rank) ∈ dot_S32x16_S32x32768_S16x32768_0_0_1_1_n_n.rhsNonContracting by decide)]
  rfl

/-- The weight operand of the contraction at output `(e, q)`, contraction index `p`: `(p, e)`. -/
theorem weight_index (e : Fin 16) (q : Fin 32768) (p : Fin 32) :
    dot_S32x16_S32x32768_S16x32768_0_0_1_1_n_n.lhsIdx (ix2 e q)
      ((contrEquiv1 dot_S32x16_S32x32768_S16x32768_0_0_1_1_n_n 32 rfl rfl).symm p) = ix2 p e := by
  have hk := contrEquiv1_symm_val dot_S32x16_S32x32768_S16x32768_0_0_1_1_n_n 32 rfl rfl p
  refine funext fun a => Fin.ext ?_
  match a with
  | ⟨0, _⟩ => exact (dot_S32x16_S32x32768_S16x32768_0_0_1_1_n_n.lhsIdx_val_of_single rfl (ix2 e q) _).trans hk
  | ⟨1, _⟩ => exact weight_free _ _

/-- The flattened-stack operand at output `(e, q)`, contraction index `p`: `(p, q)`. -/
theorem stack_index (e : Fin 16) (q : Fin 32768) (p : Fin 32) :
    dot_S32x16_S32x32768_S16x32768_0_0_1_1_n_n.rhsIdx (ix2 e q)
      ((contrEquiv1 dot_S32x16_S32x32768_S16x32768_0_0_1_1_n_n 32 rfl rfl).symm p) = ix2 p q := by
  have hk := contrEquiv1_symm_val dot_S32x16_S32x32768_S16x32768_0_0_1_1_n_n 32 rfl rfl p
  refine funext fun a => Fin.ext ?_
  match a with
  | ⟨0, _⟩ => exact (dot_S32x16_S32x32768_S16x32768_0_0_1_1_n_n.rhsIdx_val_of_single rfl (ix2 e q) _).trans hk
  | ⟨1, _⟩ => exact stack_free _ _

/-- The contraction of the weights with a flat block `[32, 32768]`, into zero, at `(e, q)`. -/
theorem contract_apply (w : FVec Ideal S32x16 .bf16) (y : FVec Ideal S32x32768 .bf16) (e : Fin 16) (q : Fin 32768) :
    matmul dot_S32x16_S32x32768_S16x32768_0_0_1_1_n_n none w y (constant S16x32768 .f32 0x00000000#32) (ix2 e q)
      = ∑ p : Fin 32, w (ix2 p e) * y (ix2 p q) := by
  refine (Ideal.matmul_constant_zero_apply dot_S32x16_S32x32768_S16x32768_0_0_1_1_n_n none w y (ix2 e q)).trans ?_
  rw [← Equiv.sum_comp (contrEquiv1 dot_S32x16_S32x32768_S16x32768_0_0_1_1_n_n 32 rfl rfl).symm]
  refine Finset.sum_congr rfl fun p _ => ?_
  rw [weight_index, stack_index]

/-- What the body stores, at `(e, r, j)` of its block: the weights' column `e` against the loaded stack at `(r, j)`. -/
theorem mix_apply (x0 : Vec Ideal S32x32x1024 .f32) (x1 : Vec Ideal S32x16 .f32) (e : Fin 16) (r : Fin 32) (j : Fin 1024) :
    k0_pay1 (F := Ideal) x0 x1 (ix3 e r j) = ∑ p : Fin 32, x1 (ix2 p e) * x0 (ix3 p r j) := by
  have hr : r.val < 32 := r.isLt
  have hj : j.val < 1024 := j.isLt
  unfold k0_pay1
  refine (shapeCast_apply
    (matmul dot_S32x16_S32x32768_S16x32768_0_0_1_1_n_n none (truncf (F := Ideal) .bf16 x1 bitsLt_bf16_f32)
      (shapeCast S32x32768 (truncf (F := Ideal) .bf16 x0 bitsLt_bf16_f32) shapeCasts_S32x32x1024_S32x32768) (constant S16x32768 .f32 0x00000000#32))
    shapeCasts_S16x32768_S16x32x1024 (ix3 e r j) (ix2 e ⟨r.val * 1024 + j.val, by omega⟩) ?_).trans ?_
  · rw [Shape.rowMajor_val_two, Shape.rowMajor_val_three]
    show e.val * 32768 + (r.val * 1024 + j.val) = (e.val * 32 + r.val) * 1024 + j.val
    omega
  · refine (contract_apply _ _ e ⟨r.val * 1024 + j.val, by omega⟩).trans ?_
    refine Finset.sum_congr rfl fun p _ => ?_
    have hp : p.val < 32 := p.isLt
    refine congrArg (x1 (ix2 p e) * ·) ?_
    refine shapeCast_apply (truncf (F := Ideal) .bf16 x0 bitsLt_bf16_f32) shapeCasts_S32x32x1024_S32x32768
      (ix2 p ⟨r.val * 1024 + j.val, by omega⟩) (ix3 p r j) ?_
    rw [Shape.rowMajor_val_two, Shape.rowMajor_val_three]
    show (p.val * 32 + r.val) * 1024 + j.val = p.val * 32768 + (r.val * 1024 + j.val)
    omega

/-! ## The body's result as one function of its two loaded blocks -/

theorem zero3 : (![0, 0, 0] : Fin 3 → Nat) = fun _ => 0 := funext fun a => by fin_cases a <;> rfl
theorem zero2 : (![0, 0] : Fin 2 → Nat) = fun _ => 0 := funext fun a => by fin_cases a <;> rfl

/-- The block function: from a block of the stack `x0` and the weights `x1`. -/
def mixBlock (x0 : Vec Ideal S32x32x1024 .f32) (x1 : Vec Ideal S32x16 .f32) : S16x32x1024.Idx → EReal :=
  fun z => ∑ p : Fin 32, x1 (ix2 p (z 0)) * x0 (ix3 p (z 1) (z 2))

/-- The block the body leaves in the output's staging buffer is the block function of its two loaded blocks. -/
theorem block_eq (x0 : Vec Ideal S32x32x1024 .f32) (x1 : Vec Ideal S32x16 .f32) :
    out0_2 (F := Ideal) x0 x1 = mixBlock x0 x1 := by
  unfold out0_2
  rw [View.canon_unit_zero zero3]
  simp only [View.ld_unit_zero (S := S32x32x1024) zero3, View.ld_unit_zero (S := S32x16) zero2]
  funext z
  obtain ⟨e, r, j, rfl⟩ : ∃ (e : Fin 16) (r : Fin 32) (j : Fin 1024), z = ix3 e r j := ⟨z 0, z 1, z 2, eq_ix3 z⟩
  exact mix_apply x0 x1 e r j

/-- If the loaded stack block is rows `32·t …` of a stack `T` and the loaded weights are `P`, the block function at
    `(e, r, j)` is the mixed filter bank of `P` and `T` at `(e, 32·t + r, j)`. -/
theorem mixBlock_read (x0 : Vec Ideal S32x32x1024 .f32) (x1 : Vec Ideal S32x16 .f32)
    (P : (⟨2, ![32, 16]⟩ : Shape).Idx → EReal) (T : (⟨3, ![32, 1024, 1024]⟩ : Shape).Idx → EReal)
    (row : Fin 32 → Fin 1024)
    (h0 : ∀ (p : Fin 32) (r : Fin 32) (j : Fin 1024), x0 (ix3 p r j) = T (ix3 p (row r) j))
    (h1 : ∀ (p : Fin 32) (e : Fin 16), x1 (ix2 p e) = P (ix2 p e))
    (e : Fin 16) (r : Fin 32) (j : Fin 1024) :
    mixBlock x0 x1 (ix3 e r j) = filters P T (ix3 e (row r) j) := by
  show ∑ p : Fin 32, x1 (ix2 p e) * x0 (ix3 p r j) = ∑ p : Fin 32, P (ix2 p e) * T (ix3 p (row r) j)
  exact Finset.sum_congr rfl fun p _ => by rw [h0, h1]

/-! ## Where each block sits -/

/-- The printed index maps, decided over the 32 grid points: the stack's and the output's blocks move along the row
    axis with the point, the weights' block is the whole matrix. -/
theorem block_indices : ∀ t : Fin cfg0.N,
    win0_0.index t (0 : Fin 3) = 0 ∧ win0_0.index t (1 : Fin 3) = t.val ∧ win0_0.index t (2 : Fin 3) = 0
    ∧ win0_1.index t (0 : Fin 2) = 0 ∧ win0_1.index t (1 : Fin 2) = 0
    ∧ win0_2.index t (0 : Fin 3) = 0 ∧ win0_2.index t (1 : Fin 3) = t.val ∧ win0_2.index t (2 : Fin 3) = 0 :=
  (by decide +kernel : ∀ t : Fin grid0.N, _)

theorem point_lt (t : Fin cfg0.N) : t.val < 32 := t.isLt

section
variable (V : (c : Dev nD) → (b : Ref sig .tc) → Buf (Elt Ideal) ((c : Thread nD τ).loc b))

/-- The stack's block at point `t` is rows `32·t …` of every transformation. -/
theorem read_stack (c : Dev nD) (t : Fin cfg0.N) (p : Fin 32) (r : Fin 32) (j : Fin 1024) :
    iblk0 V c 0 t (ix3 p r j)
      = V c main_arg2 (ix3 p ⟨t.val * 32 + r.val, by have := point_lt t; have := r.isLt; omega⟩ j) := by
  show V c main_arg2 (((cfg0.win 0).blk t).view.emb (ix3 p r j)) = _
  obtain ⟨a0, a1, a2, -⟩ := block_indices t
  refine congrArg (V c main_arg2) (funext fun a => Fin.ext ?_)
  match a with
  | ⟨0, _⟩ => show win0_0.index t (0 : Fin 3) * 32 + 1 * p.val = p.val; omega
  | ⟨1, _⟩ => show win0_0.index t (1 : Fin 3) * 32 + 1 * r.val = t.val * 32 + r.val; omega
  | ⟨2, _⟩ => show win0_0.index t (2 : Fin 3) * 1024 + 1 * j.val = j.val; omega

/-- The weights' block at every point is the whole weight matrix. -/
theorem read_weights (c : Dev nD) (t : Fin cfg0.N) (p : Fin 32) (e : Fin 16) :
    iblk0 V c 1 t (ix2 p e) = V c main_arg1 (ix2 p e) := by
  show V c main_arg1 (((cfg0.win 1).blk t).view.emb (ix2 p e)) = _
  obtain ⟨-, -, -, b0, b1, -⟩ := block_indices t
  refine congrArg (V c main_arg1) (funext fun a => Fin.ext ?_)
  match a with
  | ⟨0, _⟩ => show win0_1.index t (0 : Fin 2) * 32 + 1 * p.val = p.val; omega
  | ⟨1, _⟩ => show win0_1.index t (1 : Fin 2) * 16 + 1 * e.val = e.val; omega

/-- An element of the output's block at point `t` sits at row `32·t + r` of its filter. -/
theorem out_index (t : Fin cfg0.N) (e : Fin 16) (r : Fin 32) (j : Fin 1024) :
    ((cfg0.win 2).blk t).view.emb (ix3 e r j)
      = ix3 e ⟨t.val * 32 + r.val, by have := point_lt t; have := r.isLt; omega⟩ j := by
  obtain ⟨-, -, -, -, -, o0, o1, o2⟩ := block_indices t
  refine funext fun a => Fin.ext ?_
  match a with
  | ⟨0, _⟩ => show win0_2.index t (0 : Fin 3) * 16 + 1 * e.val = e.val; omega
  | ⟨1, _⟩ => show win0_2.index t (1 : Fin 3) * 32 + 1 * r.val = t.val * 32 + r.val; omega
  | ⟨2, _⟩ => show win0_2.index t (2 : Fin 3) * 1024 + 1 * j.val = j.val; omega

/-- WHAT POINT `t` WRITES BACK is block `t` of the mixed filter bank of the arrays as the kernel finds them. -/
theorem flushed_eq (c : Dev nD) (t : Fin cfg0.N) :
    (dat0 V c).flushed 2 t
      = ((cfg0.win 2).blk t).view.read (Elt Ideal) (filters (V c main_arg1) (V c main_arg2)) := by
  show (cfg0.win 2).cut (grid0.coords t) ((dat0 V c).after 2 t) = _
  rw [after0_2, block_eq]
  funext y
  obtain ⟨e, r, j, rfl⟩ : ∃ (e : Fin 16) (r : Fin 32) (j : Fin 1024), y = ix3 e r j := ⟨y 0, y 1, y 2, eq_ix3 y⟩
  refine (mixBlock_read (iblk0 V c 0 t) (iblk0 V c 1 t) (V c main_arg1) (V c main_arg2)
    (fun r => ⟨t.val * 32 + r.val, by have := point_lt t; have := r.isLt; omega⟩)
    (fun p r j => read_stack V c t p r j) (fun p e => read_weights V c t p e) e r j).trans ?_
  exact (congrArg (filters (V c main_arg1) (V c main_arg2)) (out_index t e r j)).symm

/-- An index of the filter bank is in point `t`'s block iff each coordinate is in the block's range on its axis. -/
theorem mem_blk (t : Fin cfg0.N) (i : S16x1024x1024.Idx) :
    i ∈ ((cfg0.win 2).blk t).view.set ↔ ∀ a : Fin 3, win0_2.index t a * S16x32x1024.size a ≤ (i a).val
      ∧ (i a).val < win0_2.index t a * S16x32x1024.size a + S16x32x1024.size a := by
  show i ∈ ((View.whole main_v0).slice (win0_2.rect t)).set ↔ _
  rw [View.set_slice_whole, Rect.mem_set_unit]
  exact Iff.rfl

/-- The 32 blocks tile the filter bank: row `i` is written at point `i / 32`. -/
theorem covered (i : S16x1024x1024.Idx) :
    ∃ t : Fin cfg0.N, (cfg0.win 2).flush t = true ∧ i ∈ ((cfg0.win 2).blk t).view.set := by
  have h0 : (i 0).val < 16 := (i 0).isLt
  have h1 : (i 1).val < 1024 := (i 1).isLt
  have h2 : (i 2).val < 1024 := (i 2).isLt
  obtain ⟨t, ht⟩ : ∃ t : Fin cfg0.N, t.val = (i 1).val / 32 := ⟨⟨(i 1).val / 32, by show (i 1).val / 32 < 32; omega⟩, rfl⟩
  obtain ⟨-, -, -, -, -, o0, o1, o2⟩ := block_indices t
  refine ⟨t, flush0_2 t, ?_⟩
  rw [mem_blk]
  intro a
  match a with
  | ⟨0, _⟩ => show win0_2.index t (0 : Fin 3) * 16 ≤ (i 0).val ∧ (i 0).val < win0_2.index t (0 : Fin 3) * 16 + 16; omega
  | ⟨1, _⟩ => show win0_2.index t (1 : Fin 3) * 32 ≤ (i 1).val ∧ (i 1).val < win0_2.index t (1 : Fin 3) * 32 + 32; omega
  | ⟨2, _⟩ => show win0_2.index t (2 : Fin 3) * 1024 ≤ (i 2).val ∧ (i 2).val < win0_2.index t (2 : Fin 3) * 1024 + 1024; omega

/-- THE FILTER BANK after the first kernel: `MixedFilters.filters` of the weights and the stack as the kernel
    finds them. -/
theorem final (c : Dev nD) :
    (dat0 V c).arrAt 2 cfg0.N = filters (V c main_arg1) (V c main_arg2) :=
  (dat0 V c).arrAt_eq_of_cover 2 (filters (V c main_arg1) (V c main_arg2)) (fun t _ => flushed_eq V c t) covered

end

end Cert.KernelIdeal.FilterStage

end
-- ==== Proof.ResponseStage.lean ====
/-
  The second kernel: the gated response, a tile of 256 batch rows by 128 filter rows at a time.

  Grid point `t` (of 8 × 16) loads 256 rows of the batch (a block `[256, 1024]`) and 128 rows of every filter of the
  bank the first kernel left (a block `[16, 128, 1024]`). For each of the 16 filters it contracts the batch block
  with that filter's 128 rows over the last axis, applies `s ↦ s · σ(s)`, and stores the `[256, 128]` result as
  the slab `[:, :, e]` of its output block `[256, 128, 16]`. The 16 slabs tile the block, so the block is ONE
  function of the two loaded blocks: at `(b, i, e)` it is `gate (∑ j, x[b, j] · f[e, i, j])`. The block stored
  at point `t` is then block `t` of `MixedFilters.respond` of the batch and the filter bank, and the 128 blocks tile
  the output.
-/
import proofs.«137690_j90958817394732_2_alg».proof.Proof.Gen.KernelIdeal.Frame
import proofs.«137690_j90958817394732_2_alg».proof.Proof.MixedFilters
import Idealize.ShloMosaic.Lib.Pipeline.Value
import Idealize.ShloMosaic.Lib.ValueIdx
import Idealize.ShloMosaic.PureOps.Ideal.Laws

noncomputable section

namespace Cert.KernelIdeal.ResponseStage

open Cert.KernelIdeal Cert.KernelIdeal.Gen
open Idealize.ShloMosaic Idealize.ShloMosaic.TcCoe Idealize.ShloMosaic.ValueIdx Idealize.SL.Sem
open Cert.MixedFilters

/-! ## One filter's contraction at an index -/

/-- Output axis 0 is the batch block's free axis. -/
theorem batch_free (i : S256x128.Idx) (k : dot_S256x1024_S128x1024_S256x128_1_1_0_0_n_n.contr.Idx) :
    (dot_S256x1024_S128x1024_S256x128_1_1_0_0_n_n.lhsIdx i k 0).val = (i 0).val := by
  unfold DotDims.lhsIdx
  rw [dif_neg (show ¬(0 : Fin S256x1024.rank) ∈ dot_S256x1024_S128x1024_S256x128_1_1_0_0_n_n.lhsBatch by decide),
    dif_pos (show (0 : Fin S256x1024.rank) ∈ dot_S256x1024_S128x1024_S256x128_1_1_0_0_n_n.lhsNonContracting by decide)]
  rfl

/-- Output axis 1 is the filter rows' free axis. -/
theorem filter_free (i : S256x128.Idx) (k : dot_S256x1024_S128x1024_S256x128_1_1_0_0_n_n.contr.Idx) :
    (dot_S256x1024_S128x1024_S256x128_1_1_0_0_n_n.rhsIdx i k 0).val = (i 1).val := by
  unfold DotDims.rhsIdx
  rw [dif_neg (show ¬(0 : Fin S128x1024.rank) ∈ dot_S256x1024_S128x1024_S256x128_1_1_0_0_n_n.rhsBatch by decide),
    dif_pos (show (0 : Fin S128x1024.rank) ∈ dot_S256x1024_S128x1024_S256x128_1_1_0_0_n_n.rhsNonContracting by decide)]
  rfl

/-- The batch operand at output `(b, i)`, contraction index `j`: `(b, j)`. -/
theorem batch_index (b : Fin 256) (i : Fin 128) (j : Fin 1024) :
    dot_S256x1024_S128x1024_S256x128_1_1_0_0_n_n.lhsIdx (ix2 b i) ((contrEquiv1 dot_S256x1024_S128x1024_S256x128_1_1_0_0_n_n 1024 rfl rfl).symm j) = ix2 b j := by
  have hk := contrEquiv1_symm_val dot_S256x1024_S128x1024_S256x128_1_1_0_0_n_n 1024 rfl rfl j
  refine funext fun a => Fin.ext ?_
  match a with
  | ⟨0, _⟩ => exact batch_free _ _
  | ⟨1, _⟩ => exact (dot_S256x1024_S128x1024_S256x128_1_1_0_0_n_n.lhsIdx_val_of_single rfl (ix2 b i) _).trans hk

/-- The filter operand at output `(b, i)`, contraction index `j`: `(i, j)`. -/
theorem filter_index (b : Fin 256) (i : Fin 128) (j : Fin 1024) :
    dot_S256x1024_S128x1024_S256x128_1_1_0_0_n_n.rhsIdx (ix2 b i) ((contrEquiv1 dot_S256x1024_S128x1024_S256x128_1_1_0_0_n_n 1024 rfl rfl).symm j) = ix2 i j := by
  have hk := contrEquiv1_symm_val dot_S256x1024_S128x1024_S256x128_1_1_0_0_n_n 1024 rfl rfl j
  refine funext fun a => Fin.ext ?_
  match a with
  | ⟨0, _⟩ => exact filter_free _ _
  | ⟨1, _⟩ => exact (dot_S256x1024_S128x1024_S256x128_1_1_0_0_n_n.rhsIdx_val_of_single rfl (ix2 b i) _).trans hk

/-- The contraction of a batch block with 128 filter rows, into zero, at `(b, i)`. -/
theorem contract_apply (xb : FVec Ideal S256x1024 .bf16) (f : FVec Ideal S128x1024 .bf16) (b : Fin 256) (i : Fin 128) :
    matmul dot_S256x1024_S128x1024_S256x128_1_1_0_0_n_n none xb f (constant S256x128 .f32 0x00000000#32) (ix2 b i)
      = ∑ j : Fin 1024, xb (ix2 b j) * f (ix2 i j) := by
  refine (Ideal.matmul_constant_zero_apply dot_S256x1024_S128x1024_S256x128_1_1_0_0_n_n none xb f (ix2 b i)).trans ?_
  rw [← Equiv.sum_comp (contrEquiv1 dot_S256x1024_S128x1024_S256x128_1_1_0_0_n_n 1024 rfl rfl).symm]
  refine Finset.sum_congr rfl fun j _ => ?_
  rw [batch_index, filter_index]

/-! ## One slab -/

/-- What the body stores for one filter: from the batch block and that filter's loaded rows `[1, 128, 1024]`, the
    contraction, gated, as a slab `[256, 128, 1]`. Each of the body's sixteen stored values is this. -/
def slab (xb : FVec Ideal S256x1024 .bf16) (f : FVec Ideal S1x128x1024 .bf16) : FVec Ideal S256x128x1 .f32 :=
  shapeCast S256x128x1
    (mulf (matmul dot_S256x1024_S128x1024_S256x128_1_1_0_0_n_n none xb (shapeCast S128x1024 f shapeCasts_S1x128x1024_S128x1024) (constant S256x128 .f32 0x00000000#32))
      (logistic (matmul dot_S256x1024_S128x1024_S256x128_1_1_0_0_n_n none xb (shapeCast S128x1024 f shapeCasts_S1x128x1024_S128x1024) (constant S256x128 .f32 0x00000000#32))))
    shapeCasts_S256x128_S256x128x1

/-- A slab at `(b, i, 0)`: row `b` of the batch block against row `i` of the loaded filter rows, gated. -/
theorem slab_apply (xb : FVec Ideal S256x1024 .bf16) (f : FVec Ideal S1x128x1024 .bf16) (b : Fin 256) (i : Fin 128) (u : Fin 1) :
    slab xb f (ix3 b i u) = gate (∑ j : Fin 1024, xb (ix2 b j) * f (ix3 0 i j)) := by
  have hu : u.val < 1 := u.isLt
  unfold slab
  refine (shapeCast_apply _ shapeCasts_S256x128_S256x128x1 (ix3 b i u) (ix2 b i) ?_).trans ?_
  · rw [Shape.rowMajor_val_two, Shape.rowMajor_val_three]
    show b.val * 128 + i.val = (b.val * 128 + i.val) * 1 + u.val
    omega
  · show gate (matmul dot_S256x1024_S128x1024_S256x128_1_1_0_0_n_n none xb (shapeCast S128x1024 f shapeCasts_S1x128x1024_S128x1024) (constant S256x128 .f32 0x00000000#32) (ix2 b i)) = _
    refine congrArg gate ((contract_apply xb _ b i).trans (Finset.sum_congr rfl fun j _ => ?_))
    refine congrArg (xb (ix2 b j) * ·) ?_
    refine shapeCast_apply f shapeCasts_S1x128x1024_S128x1024 (ix2 i j) (ix3 0 i j) ?_
    rw [Shape.rowMajor_val_two, Shape.rowMajor_val_three]
    show (0 * 128 + i.val) * 1024 + j.val = i.val * 1024 + j.val
    omega

/-- The block function: from a batch block and a block of all sixteen filters' rows. -/
def tile (xb : FVec Ideal S256x1024 .bf16) (x1 : Vec Ideal S16x128x1024 .bf16) : S256x128x16.Idx → EReal :=
  fun z => gate (∑ j : Fin 1024, xb (ix2 (z 0) j) * x1 (ix3 (z 2) (z 1) j))

/-- The slab of filter `e`, computed from rows loaded through the rectangle at `[e, 0, 0]` and stored through the
    rectangle at `[0, 0, e]`, is the tile function on that rectangle. -/
theorem slab_tile (xb : FVec Ideal S256x1024 .bf16) (x1 : Vec Ideal S16x128x1024 .bf16) (e : Nat)
    (inf : ∀ a, (![e, 0, 0] : Fin 3 → Nat) a + S1x128x1024.size a ≤ S16x128x1024.size a)
    (ino : ∀ a, (![0, 0, e] : Fin 3 → Nat) a + S256x128x1.size a ≤ S256x128x16.size a)
    (x : (Rect.unit (s := S256x128x16) ![0, 0, e] S256x128x1.size ino).shape.Idx) :
    slab xb (View.ld x1 (Rect.unit (s := S16x128x1024) ![e, 0, 0] S1x128x1024.size inf)) x
      = tile xb x1 ((Rect.unit (s := S256x128x16) ![0, 0, e] S256x128x1.size ino).emb x) := by
  obtain ⟨b, i, u, rfl⟩ : ∃ (b : Fin 256) (i : Fin 128) (u : Fin 1), x = ix3 b i u := ⟨x 0, x 1, x 2, eq_ix3 x⟩
  have hu : u.val < 1 := u.isLt
  refine (slab_apply xb _ b i u).trans ?_
  unfold tile
  refine congrArg gate (Finset.sum_congr rfl fun j _ => ?_)
  have h1 : (ix2 b j : S256x1024.Idx)
      = ix2 ((Rect.unit (s := S256x128x16) ![0, 0, e] S256x128x1.size ino).emb (ix3 b i u) 0) j :=
    funext fun a => Fin.ext (by
      match a with
      | ⟨0, _⟩ => show b.val = 0 + 1 * b.val; omega
      | ⟨1, _⟩ => rfl)
  have h2 : ((Rect.unit (s := S16x128x1024) ![e, 0, 0] S1x128x1024.size inf).idx (ix3 0 i j) : S16x128x1024.Idx)
      = ix3 ((Rect.unit (s := S256x128x16) ![0, 0, e] S256x128x1.size ino).emb (ix3 b i u) 2)
          ((Rect.unit (s := S256x128x16) ![0, 0, e] S256x128x1.size ino).emb (ix3 b i u) 1) j :=
    funext fun a => Fin.ext (by
      match a with
      | ⟨0, _⟩ => show e + 1 * 0 = e + 1 * u.val; omega
      | ⟨1, _⟩ => show 0 + 1 * i.val = 0 + 1 * i.val; rfl
      | ⟨2, _⟩ => show 0 + 1 * j.val = j.val; omega)
  exact congrArg₂ (fun (a b : EReal) => a * b) (congrArg xb h1) (congrArg x1 h2)

/-! ## The body's result as one function of its two loaded blocks -/

theorem zero2 : (![0, 0] : Fin 2 → Nat) = fun _ => 0 := funext fun a => by fin_cases a <;> rfl

/-- The block the body leaves in the output's staging buffer: its sixteen stores are the sixteen slabs of the tile
    function, and they tile the block. -/
theorem block_eq (x0 : Vec Ideal S256x1024 .f32) (x1 : Vec Ideal S16x128x1024 .bf16) :
    out1_2 (F := Ideal) x0 x1 = tile (truncf (F := Ideal) .bf16 x0 bitsLt_bf16_f32) x1 := by
  have hx : View.ld x0 r1_0 = x0 := View.ld_unit_zero (S := S256x1024) zero2 _ x0
  funext z
  unfold out1_2
  rw [hx]
  refine View.canon_apply_of_pieces (Val := Elt Ideal) (S := S256x128x16) (e := .f32) (tile (truncf (F := Ideal) .bf16 x0 bitsLt_bf16_f32) x1) _ ?_ z
    (cover1_2 _ _ _ _ _ _ _ _ _ _ _ _ _ _ _ _ z)
  intro p hp x
  simp only [List.mem_cons, List.mem_nil_iff, or_false] at hp
  rcases hp with rfl | rfl | rfl | rfl | rfl | rfl | rfl | rfl | rfl | rfl | rfl | rfl | rfl | rfl | rfl | rfl
  · exact slab_tile _ x1 15 inb_S16x128x1024_S1x128x1024_15_0_0 inb_S256x128x16_S256x128x1_0_0_15 x
  · exact slab_tile _ x1 14 inb_S16x128x1024_S1x128x1024_14_0_0 inb_S256x128x16_S256x128x1_0_0_14 x
  · exact slab_tile _ x1 13 inb_S16x128x1024_S1x128x1024_13_0_0 inb_S256x128x16_S256x128x1_0_0_13 x
  · exact slab_tile _ x1 12 inb_S16x128x1024_S1x128x1024_12_0_0 inb_S256x128x16_S256x128x1_0_0_12 x
  · exact slab_tile _ x1 11 inb_S16x128x1024_S1x128x1024_11_0_0 inb_S256x128x16_S256x128x1_0_0_11 x
  · exact slab_tile _ x1 10 inb_S16x128x1024_S1x128x1024_10_0_0 inb_S256x128x16_S256x128x1_0_0_10 x
  · exact slab_tile _ x1 9 inb_S16x128x1024_S1x128x1024_9_0_0 inb_S256x128x16_S256x128x1_0_0_9 x
  · exact slab_tile _ x1 8 inb_S16x128x1024_S1x128x1024_8_0_0 inb_S256x128x16_S256x128x1_0_0_8 x
  · exact slab_tile _ x1 7 inb_S16x128x1024_S1x128x1024_7_0_0 inb_S256x128x16_S256x128x1_0_0_7 x
  · exact slab_tile _ x1 6 inb_S16x128x1024_S1x128x1024_6_0_0 inb_S256x128x16_S256x128x1_0_0_6 x
  · exact slab_tile _ x1 5 inb_S16x128x1024_S1x128x1024_5_0_0 inb_S256x128x16_S256x128x1_0_0_5 x
  · exact slab_tile _ x1 4 inb_S16x128x1024_S1x128x1024_4_0_0 inb_S256x128x16_S256x128x1_0_0_4 x
  · exact slab_tile _ x1 3 inb_S16x128x1024_S1x128x1024_3_0_0 inb_S256x128x16_S256x128x1_0_0_3 x
  · exact slab_tile _ x1 2 inb_S16x128x1024_S1x128x1024_2_0_0 inb_S256x128x16_S256x128x1_0_0_2 x
  · exact slab_tile _ x1 1 inb_S16x128x1024_S1x128x1024_1_0_0 inb_S256x128x16_S256x128x1_0_0_1 x
  · exact slab_tile _ x1 0 inb_S16x128x1024_S1x128x1024_0_0_0 inb_S256x128x16_S256x128x1_0_0_0 x

/-- If the loaded batch block is rows `brow` of a batch `X` and the loaded filter rows are rows `frow` of a bank
    `Fl`, the tile function at `(b, i, e)` is the gated response of `X` to `Fl` at `(brow b, frow i, e)`. -/
theorem tile_read (xb : FVec Ideal S256x1024 .bf16) (x1 : Vec Ideal S16x128x1024 .bf16)
    (X : (⟨2, ![4096, 1024]⟩ : Shape).Idx → EReal) (Fl : (⟨3, ![16, 1024, 1024]⟩ : Shape).Idx → EReal)
    (brow : Fin 256 → Fin 4096) (frow : Fin 128 → Fin 1024)
    (h0 : ∀ (b : Fin 256) (j : Fin 1024), xb (ix2 b j) = X (ix2 (brow b) j))
    (h1 : ∀ (e : Fin 16) (i : Fin 128) (j : Fin 1024), x1 (ix3 e i j) = Fl (ix3 e (frow i) j))
    (b : Fin 256) (i : Fin 128) (e : Fin 16) :
    tile xb x1 (ix3 b i e) = respond X Fl (ix3 (brow b) (frow i) e) := by
  show gate (∑ j : Fin 1024, xb (ix2 b j) * x1 (ix3 e i j))
    = gate (∑ j : Fin 1024, X (ix2 (brow b) j) * Fl (ix3 e (frow i) j))
  exact congrArg gate (Finset.sum_congr rfl fun j _ => by rw [h0, h1])

/-! ## Where each block sits -/

/-- The printed index maps, decided over the 128 grid points (filter-row tile major, batch tile minor). -/
theorem block_indices : ∀ t : Fin cfg1.N,
    win1_0.index t (0 : Fin 2) = t.val % 16 ∧ win1_0.index t (1 : Fin 2) = 0
    ∧ win1_1.index t (0 : Fin 3) = 0 ∧ win1_1.index t (1 : Fin 3) = t.val / 16 ∧ win1_1.index t (2 : Fin 3) = 0
    ∧ win1_2.index t (0 : Fin 3) = t.val % 16 ∧ win1_2.index t (1 : Fin 3) = t.val / 16 ∧ win1_2.index t (2 : Fin 3) = 0 :=
  (by decide +kernel : ∀ t : Fin grid1.N, _)

theorem point_lt (t : Fin cfg1.N) : t.val < 128 := t.isLt

section
variable (V : (c : Dev nD) → (b : Ref sig .tc) → Buf (Elt Ideal) ((c : Thread nD τ).loc b))

/-- The batch block at point `t` is batch rows `256·(t mod 16) …`. -/
theorem read_batch (c : Dev nD) (t : Fin cfg1.N) (b : Fin 256) (j : Fin 1024) :
    iblk1 V c 0 t (ix2 b j)
      = V c main_arg0 (ix2 ⟨t.val % 16 * 256 + b.val, by have := b.isLt; omega⟩ j) := by
  show V c main_arg0 (((cfg1.win 0).blk t).view.emb (ix2 b j)) = _
  obtain ⟨a0, a1, -⟩ := block_indices t
  refine congrArg (V c main_arg0) (funext fun a => Fin.ext ?_)
  match a with
  | ⟨0, _⟩ => show win1_0.index t (0 : Fin 2) * 256 + 1 * b.val = t.val % 16 * 256 + b.val; omega
  | ⟨1, _⟩ => show win1_0.index t (1 : Fin 2) * 1024 + 1 * j.val = j.val; omega

/-- The filter block at point `t` is rows `128·(t div 16) …` of every filter. -/
theorem read_filters (c : Dev nD) (t : Fin cfg1.N) (e : Fin 16) (i : Fin 128) (j : Fin 1024) :
    iblk1 V c 1 t (ix3 e i j)
      = V c main_v0 (ix3 e ⟨t.val / 16 * 128 + i.val, by have := point_lt t; have := i.isLt; omega⟩ j) := by
  show V c main_v0 (((cfg1.win 1).blk t).view.emb (ix3 e i j)) = _
  obtain ⟨-, -, b0, b1, b2, -⟩ := block_indices t
  refine congrArg (V c main_v0) (funext fun a => Fin.ext ?_)
  match a with
  | ⟨0, _⟩ => show win1_1.index t (0 : Fin 3) * 16 + 1 * e.val = e.val; omega
  | ⟨1, _⟩ => show win1_1.index t (1 : Fin 3) * 128 + 1 * i.val = t.val / 16 * 128 + i.val; omega
  | ⟨2, _⟩ => show win1_1.index t (2 : Fin 3) * 1024 + 1 * j.val = j.val; omega

/-- An element of the output's block at point `t` sits at batch row `256·(t mod 16) + b`, filter row `128·(t div 16) + i`. -/
theorem out_index (t : Fin cfg1.N) (b : Fin 256) (i : Fin 128) (e : Fin 16) :
    ((cfg1.win 2).blk t).view.emb (ix3 b i e)
      = ix3 ⟨t.val % 16 * 256 + b.val, by have := b.isLt; omega⟩
          ⟨t.val / 16 * 128 + i.val, by have := point_lt t; have := i.isLt; omega⟩ e := by
  obtain ⟨-, -, -, -, -, o0, o1, o2⟩ := block_indices t
  refine funext fun a => Fin.ext ?_
  match a with
  | ⟨0, _⟩ => show win1_2.index t (0 : Fin 3) * 256 + 1 * b.val = t.val % 16 * 256 + b.val; omega
  | ⟨1, _⟩ => show win1_2.index t (1 : Fin 3) * 128 + 1 * i.val = t.val / 16 * 128 + i.val; omega
  | ⟨2, _⟩ => show win1_2.index t (2 : Fin 3) * 16 + 1 * e.val = e.val; omega

/-- WHAT POINT `t` WRITES BACK is block `t` of the gated response of the batch to the filter bank, both as the kernel
    finds them. -/
theorem flushed_eq (c : Dev nD) (t : Fin cfg1.N) :
    (dat1 V c).flushed 2 t
      = ((cfg1.win 2).blk t).view.read (Elt Ideal) (respond (V c main_arg0) (V c main_v0)) := by
  show (cfg1.win 2).cut (grid1.coords t) ((dat1 V c).after 2 t) = _
  rw [after1_2, block_eq]
  funext y
  obtain ⟨b, i, e, rfl⟩ : ∃ (b : Fin 256) (i : Fin 128) (e : Fin 16), y = ix3 b i e := ⟨y 0, y 1, y 2, eq_ix3 y⟩
  refine (tile_read (truncf (F := Ideal) .bf16 (iblk1 V c 0 t) bitsLt_bf16_f32) (iblk1 V c 1 t) (V c main_arg0) (V c main_v0)
    (fun b => ⟨t.val % 16 * 256 + b.val, by have := b.isLt; omega⟩)
    (fun i => ⟨t.val / 16 * 128 + i.val, by have := point_lt t; have := i.isLt; omega⟩)
    (fun b j => read_batch V c t b j) (fun e i j => read_filters V c t e i j) b i e).trans ?_
  exact (congrArg (respond (V c main_arg0) (V c main_v0)) (out_index t b i e)).symm

/-- An index of the output is in point `t`'s block iff each coordinate is in the block's range on its axis. -/
theorem mem_blk (t : Fin cfg1.N) (i : S4096x1024x16.Idx) :
    i ∈ ((cfg1.win 2).blk t).view.set ↔ ∀ a : Fin 3, win1_2.index t a * S256x128x16.size a ≤ (i a).val
      ∧ (i a).val < win1_2.index t a * S256x128x16.size a + S256x128x16.size a := by
  show i ∈ ((View.whole main_v1).slice (win1_2.rect t)).set ↔ _
  rw [View.set_slice_whole, Rect.mem_set_unit]
  exact Iff.rfl

/-- The 128 blocks tile the output: `(b, i, e)` is written at the point of batch tile `b / 256` and filter-row tile
    `i / 128`. -/
theorem covered (i : S4096x1024x16.Idx) :
    ∃ t : Fin cfg1.N, (cfg1.win 2).flush t = true ∧ i ∈ ((cfg1.win 2).blk t).view.set := by
  have h0 : (i 0).val < 4096 := (i 0).isLt
  have h1 : (i 1).val < 1024 := (i 1).isLt
  have h2 : (i 2).val < 16 := (i 2).isLt
  obtain ⟨t, ht⟩ : ∃ t : Fin cfg1.N, t.val = (i 1).val / 128 * 16 + (i 0).val / 256 :=
    ⟨⟨(i 1).val / 128 * 16 + (i 0).val / 256, by show (i 1).val / 128 * 16 + (i 0).val / 256 < 128; omega⟩, rfl⟩
  obtain ⟨-, -, -, -, -, o0, o1, o2⟩ := block_indices t
  refine ⟨t, flush1_2 t, ?_⟩
  rw [mem_blk]
  intro a
  match a with
  | ⟨0, _⟩ => show win1_2.index t (0 : Fin 3) * 256 ≤ (i 0).val ∧ (i 0).val < win1_2.index t (0 : Fin 3) * 256 + 256; omega
  | ⟨1, _⟩ => show win1_2.index t (1 : Fin 3) * 128 ≤ (i 1).val ∧ (i 1).val < win1_2.index t (1 : Fin 3) * 128 + 128; omega
  | ⟨2, _⟩ => show win1_2.index t (2 : Fin 3) * 16 ≤ (i 2).val ∧ (i 2).val < win1_2.index t (2 : Fin 3) * 16 + 16; omega

/-- THE OUTPUT after the second kernel: the gated response of the batch to the filter bank, both as the kernel
    finds them. -/
theorem final (c : Dev nD) :
    (dat1 V c).arrAt 2 cfg1.N = respond (V c main_arg0) (V c main_v0) :=
  (dat1 V c).arrAt_eq_of_cover 2 (respond (V c main_arg0) (V c main_v0)) (fun t _ => flushed_eq V c t) covered

end

end Cert.KernelIdeal.ResponseStage

end
-- ==== Proof.KernelRun.lean ====
/-
  The idealized kernel program's run with its result array NAMED, and that array's value.

  The program is two kernels in a row. The first writes the mixed filter bank into an intermediate array; the second
  reads the batch (untouched by the first) and that intermediate array and writes the result. So the result array
  after the run is the second kernel's function (`MixedFilters.respond`) of the batch and of the first kernel's
  function (`MixedFilters.filters`) of the weights and the stack: `MixedFilters.result` of the three arguments.
-/
import proofs.«137690_j90958817394732_2_alg».proof.Proof.Gen.KernelIdeal.Frame
import proofs.«137690_j90958817394732_2_alg».proof.Proof.FilterStage
import proofs.«137690_j90958817394732_2_alg».proof.Proof.ResponseStage

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixedFilters

section
variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the contents
    the second kernel's write-backs leave (`W2` at the result's buffer) and the three arguments as launched. -/
theorem run_named : θ_run defs (onTc (τ := τ) (main (F := F))) ⟨m, fun _ => 0, ρ⟩ (fun r => ∀ c : Dev nD,
      r.2.mem ((c.tc : Thread nD τ).loc main_v1) = W2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v1 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

end

/-! ## The value of the result array -/

variable (m : (ℓ : Loc nD τ sig) → Buf (Elt Ideal) ℓ) (ρ : Dev nD → PrngReg)

/-- The first kernel finds the weights and the stack as launched. -/
theorem bank_value (c : Dev nD) :
    V1 m ρ c main_v0 = filters (m ((c.tc : Thread nD τ).loc main_arg1)) (m ((c.tc : Thread nD τ).loc main_arg2)) :=
  (W1_arr m ρ c 2).trans (FilterStage.final (V0 m ρ) c)

/-- The second kernel finds the batch as launched: the first kernel does not touch it. -/
theorem batch_kept (c : Dev nD) : V1 m ρ c main_arg0 = m ((c.tc : Thread nD τ).loc main_arg0) :=
  W1_of_ne m ρ c main_arg0 (by decide)

/-- THE RESULT ARRAY after the run is `MixedFilters.result` of the three argument arrays. -/
theorem result_value (c : Dev nD) :
    W2 m ρ c (Proc.devRef .tc main_v1)
      = result (m ((c.tc : Thread nD τ).loc main_arg0)) (m ((c.tc : Thread nD τ).loc main_arg1)) (m ((c.tc : Thread nD τ).loc main_arg2)) := by
  refine (W2_arr m ρ c 2).trans ((ResponseStage.final (V1 m ρ) c).trans ?_)
  rw [batch_kept, bank_value]
  rfl

/-- The run, read: the result array at `MixedFilters.result` of the arguments, the arguments unchanged. -/
theorem run : θ_run defs (onTc (τ := τ) (main (F := Ideal))) ⟨m, fun _ => 0, ρ⟩ (fun r => ∀ c : Dev nD,
      r.2.mem ((c.tc : Thread nD τ).loc main_v1)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_value m ρ c), (h c).2⟩) (run_named m ρ)

end Cert.KernelIdeal.RunValue

end
-- ==== Proof.lean ====
/-
  The certificate's claim, assembled.

  Both idealized programs compute, index by index over the extended reals,
    `out[b, i, e] = s · σ(s)`,  `s = ∑ j, X[b, j] · (∑ p, P[p, e] · T[p, i, j])`
  (`Proof/MixedFilters.lean`). The kernel program does it in two tiled kernels (`Proof/FilterStage.lean`: the mixed
  filter bank, 32 rows at a time; `Proof/ResponseStage.lean`: the gated response, 256 × 128 tiles, sixteen filters
  per tile; `Proof/KernelRun.lean`: the two chained), the reference in one pass of whole-array operations
  (`Proof/ReferenceValue.lean`). The factors are multiplied in the same order on both sides and every sum runs over
  the same index set, so the two values are the same term: no algebraic law and no finiteness of the inputs is used.
  The roundings to bfloat16 inside the kernels are the identity on the extended reals, and the idealization rewrote
  nothing, so `preserves` is trivial.
-/
import proofs.«137690_j90958817394732_2_alg».proof.Defs
import proofs.«137690_j90958817394732_2_alg».proof.Proof.Gen.Kernel
import proofs.«137690_j90958817394732_2_alg».proof.Proof.Gen.Kernel.Skeleton
import proofs.«137690_j90958817394732_2_alg».proof.Proof.Gen.Kernel.Launch
import proofs.«137690_j90958817394732_2_alg».proof.Proof.Gen.Kernel.Points
import proofs.«137690_j90958817394732_2_alg».proof.Proof.Gen.Kernel.Frame
import proofs.«137690_j90958817394732_2_alg».proof.Proof.Gen.KernelIdeal
import proofs.«137690_j90958817394732_2_alg».proof.Proof.Gen.KernelIdeal.Skeleton
import proofs.«137690_j90958817394732_2_alg».proof.Proof.Gen.KernelIdeal.Launch
import proofs.«137690_j90958817394732_2_alg».proof.Proof.Gen.KernelIdeal.Points
import proofs.«137690_j90958817394732_2_alg».proof.Proof.Gen.KernelIdeal.Frame
import proofs.«137690_j90958817394732_2_alg».proof.Proof.Gen.ReferenceIdeal
import proofs.«137690_j90958817394732_2_alg».proof.Proof.Gen.ReferenceIdeal.Run
import proofs.«137690_j90958817394732_2_alg».proof.Proof.Gen.ReferenceIdeal.Read
import proofs.«137690_j90958817394732_2_alg».proof.Proof.Gen.Pre_finite_inputs
import proofs.«137690_j90958817394732_2_alg».proof.Proof.MixedFilters
import proofs.«137690_j90958817394732_2_alg».proof.Proof.ReferenceValue
import proofs.«137690_j90958817394732_2_alg».proof.Proof.KernelRun
import Idealize.ShloMosaic.Adequacy
import Idealize.ShloMosaic.Init

noncomputable section

namespace Cert.Proof

open Idealize.ShloMosaic Idealize.SL.Sem Cert.Kernel

/-- The word-level kernel program runs and keeps its arguments. -/
theorem frame_kernel : Cert.frame_Kernel :=
  fun m ρ _ => Cert.Kernel.Gen.frame m ρ

/-- The idealized kernel program runs and keeps its arguments. -/
theorem frame_kernel_ideal : Cert.frame_KernelIdeal :=
  fun m ρ _ => Cert.KernelIdeal.Gen.frame m ρ

/-- The idealized reference runs and keeps its arguments: its run with the result dropped. -/
theorem frame_reference_ideal : Cert.frame_ReferenceIdeal :=
  fun m ρ _ => (θ_run Cert.ReferenceIdeal.defs _ _).mono (fun _ h c => (h c).2)
    (Cert.ReferenceIdeal.Value.run (F := Ideal) m ρ)

/-- From memories that agree on the three arguments, both idealized programs end with the result array at
    `MixedFilters.result` of those arguments. -/
theorem algebraic :
    Cert.algebraic_KernelIdeal_ReferenceIdeal := by
  intro m ρ m' ρ' _ hagree
  refine ⟨fun c => Cert.MixedFilters.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
